-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128x128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 29
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel program's run with EVERY buffer named. The program is four segments on each TensorCore: a host
  stretch (the bias of the projection recast as a row), the dense-projection pipeline over 20 row tiles, a second host
  stretch (gather the source rows, scale by the edge weights, add into the destination rows; the output bias recast as
  a row), and the combine pipeline over the same 20 row tiles. Every weakly fair execution terminates, and in every final
  memory each unscoped TensorCore buffer holds the contents the fold of the four segments gives it: the launch memory
  pushed through the first stretch, the first pipeline's write-backs, the second stretch and the second pipeline's
  write-backs. The argument arrays and the result array are instances of this one statement.
-/
import proofs.«165332_j82652350644770_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipelines' staging cells and launch tokens, and no other ghost resource per core. -/
abbrev launchElt : UR sig nD τ := initOf (Pipeline.cells cfgs cellOf_inj) (Pipeline.launchToks cfgs cellOf_inj)

/-- The launch element yields the pipeline library's resource at every staging cell, and nothing more is dealt. -/
theorem launch_deals : (ownU (launchElt) : sProp 𝕄)
    ⊢ |={Set.univ}=> iprop(BI.own (emb₁ (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The first thread state: every unscoped buffer at the launch memory, the generator register, nothing owed. -/
abbrev firstState (c : Dev nD) : sProp 𝕄 :=
  iprop(StableHlo.held (c : Thread nD τ) (Pipeline.ucRefs τ sig) (W0 m ρ c) ∗ R c)

-- the launch theorem's implicit arguments are found by unifying its conclusion with this statement, which takes
-- unfolding plain definitions in a metavariable's type
set_option backward.isDefEq.respectTransparency.types false in
/-- THE RUN, EVERY BUFFER NAMED: from any memory with zero counters every weakly fair execution of the program on the
    TensorCores terminates, nothing faulting, and every unscoped buffer of every core ends at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := launchElt)
    (hu₀ := launch_deals)
    (T₀ := firstState m ρ) (Tₙ := Tₙ m ρ)
    (hch := ⟨fun _ => .rfl, fun _ => .rfl, fun _ => .rfl, fun _ => .rfl, fun _ => .rfl⟩)
    (hinit := by
      -- each core's launch holdings are its unscoped buffers at the launch memory, its register and an empty debt
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => ∀ b ∈ Pipeline.ucRefs τ sig, s.mem (((c : Thread nD τ)).1, b) = W4 m ρ c b)
    (hfin := fun c s' => by
      -- holding every unscoped buffer at the last contents, the final memory agrees with them buffer by buffer
      iintro ⟨⟨Hbufs, -⟩, Hstate⟩
      unfold StableHlo.held
      imodintro
      iapply (pointsTo_read_all (Pipeline.ucRefs τ sig) (fun b => (((c : Thread nD τ)).1, b)) (W4 m ρ c) s')
      isplitl [Hbufs] <;> iassumption)
    (hQ := fun s h c => h c)

/-- The result array ends at the combine pipeline's array after its 20 write-backs. -/
theorem result_at (c : Dev nD) : W4 m ρ c (Proc.devRef .tc main_v16) = (dat1 (V3 m ρ) c).arrAt 3 cfg1.N :=
  W4_arr m ρ c 3

/-- THE RUN READ AT THE RESULT AND THE ARGUMENTS: the result array at the combine pipeline's final array, every argument
    array as launched. -/
theorem run : θ_run defs (onTc (τ := τ) (main (F := F))) ⟨m, fun _ => 0, ρ⟩ (fun r => ∀ c : Dev nD,
      r.2.mem ((c : Thread nD τ).loc main_v16) = (dat1 (V3 m ρ) c).arrAt 3 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c =>
    ⟨(h c _ (mem_uc main_v16 (by decide))).trans (result_at m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩)
    (run_all m ρ)

end Cert.KernelIdeal.KernelRun

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.TileValues.lean ====
/-
  What one row tile computes, entry by entry, on the extended reals.

  The dense-projection body takes a tile x of 5000 rows of the node features and the two 128 × 128 weight matrices, and
  stores two tiles: x · w_fc, whose entry (p, q) is the sum over k of x(p, k) · w_fc(k, q), and x · w_proj plus the
  projection bias spread down the rows, whose entry (p, q) is the sum over k of x(p, k) · w_proj(k, q), plus b(0, q). The
  narrowing of the operands to the short float format is the identity on extended reals, and a product into the zero
  accumulator is the plain sum.

  The combine body takes a tile a of the aggregated messages, the same tile p of the projection, and the output bias as
  a row, and stores tanh((a + p) + b) entry by entry: entry (p, q) is tanh((a(p, q) + p(p, q)) + b(0, q)).
-/
import proofs.«165332_j82652350644770_1_alg».proof.Proof.Gen.KernelIdeal.Skeleton
import proofs.«165332_j82652350644770_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileValues

open Cert.KernelIdeal Cert.KernelIdeal.Gen
open Idealize.ShloMosaic Idealize.ShloMosaic.ValueIdx

/-- The tile product's dimension numbers are a plain [5000, 128] × [128, 128] product: the left operand is read at
    (row, k), the right at (k, column). -/
theorem tileDot_plain : PlainDot.IsPlain (M := 5000) (K := 128) (N := 128) dot_S5000x128_S128x128_S5000x128_1_0_0_1_n_n where
  rank := rfl
  size := rfl
  lhs0 := fun i q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  lhs1 := fun i q => dot_S5000x128_S128x128_S5000x128_1_0_0_1_n_n.lhsIdx_val_of_single rfl i q
  rhs0 := fun i q => dot_S5000x128_S128x128_S5000x128_1_0_0_1_n_n.rhsIdx_val_of_single rfl i q
  rhs1 := fun i q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl

/-- The first stored tile, x · w_fc, at (p, q): the sum over k of x(p, k) · w(k, q). -/
theorem features_apply (x : Vec Ideal S5000x128 .f32) (w : Vec Ideal S128x128 .f32) (p : Fin 5000) (q : Fin 128) :
    k0_pay2 (F := Ideal) x w (ix2 p q) = ∑ k : Fin 128, x (ix2 p k) * w (ix2 k q) := by
  unfold k0_pay2 k0_pay1
  exact PlainDot.matmul_zero_apply _ tileDot_plain none
    (truncf .bf16 x bitsLt_bf16_f32 : FVec Ideal S5000x128 .bf16) (truncf .bf16 w bitsLt_bf16_f32 : FVec Ideal S128x128 .bf16) p q

/-- The second stored tile, x · w_proj plus the bias row spread down the rows, at (p, q). -/
theorem projection_apply (x : Vec Ideal S5000x128 .f32) (w : Vec Ideal S128x128 .f32) (b : Vec Ideal S1x128 .f32)
    (p : Fin 5000) (q : Fin 128) :
    k0_pay3 (F := Ideal) x w b (ix2 p q) = (∑ k : Fin 128, x (ix2 p k) * w (ix2 k q)) + b (ix2 (0 : Fin 1) q) := by
  unfold k0_pay3 k0_pay1
  simp only [shapeCast_self]
  refine congrArg₂ (· + ·) ?_ ?_
  · exact PlainDot.matmul_zero_apply _ tileDot_plain none
      (truncf .bf16 x bitsLt_bf16_f32 : FVec Ideal S5000x128 .bf16) (truncf .bf16 w bitsLt_bf16_f32 : FVec Ideal S128x128 .bf16) p q
  · exact broadcastTo_1b_ab_apply b broadcasts_S1x128_S5000x128 p q

/-- The combine body's stored tile at (p, q): tanh((a(p, q) + s(p, q)) + b(0, q)). -/
theorem combine_apply (a s : Vec Ideal S5000x128 .f32) (b : Vec Ideal S1x128 .f32) (p : Fin 5000) (q : Fin 128) :
    k1_pay1 (F := Ideal) a s b (ix2 p q) = Ideal.tanh ((a (ix2 p q) + s (ix2 p q)) + b (ix2 (0 : Fin 1) q)) := by
  unfold k1_pay1
  simp only [shapeCast_self]
  refine congrArg Ideal.tanh (congrArg (a (ix2 p q) + s (ix2 p q) + ·) ?_)
  exact broadcastTo_1b_ab_apply b broadcasts_S1x128_S5000x128 p q

end Cert.KernelIdeal.TileValues

end
-- ==== Proof.DenseArrays.lean ====
/-
  The dense-projection pipeline's two result arrays, as whole-array functions of the arrays the pipeline is entered with.

  The grid has 20 points; point t owns rows 5000·t … 5000·t + 4999 of the node features and of both results, and sees the
  two weight matrices and the bias row whole. So what point t writes back to the first result is block t of the array
  whose entry (r, j) is the sum over k of x(r, k) · w_fc(k, j): the tile's row p is the array's row 5000·t + p, and the
  tile product only reads that row of x. Likewise for the second result with w_proj and the bias row added. The 20 row
  blocks tile the 100000 rows, so after the last write-back each result array IS that function.
-/
import proofs.«165332_j82652350644770_1_alg».proof.Proof.Gen.KernelIdeal.Frame
import proofs.«165332_j82652350644770_1_alg».proof.Proof.TileValues

set_option maxRecDepth 16384

noncomputable section

namespace Cert.KernelIdeal.DenseArrays

open Cert.KernelIdeal Cert.KernelIdeal.Gen Cert.KernelIdeal.TileValues
open Idealize.ShloMosaic Idealize.ShloMosaic.TcCoe Idealize.ShloMosaic.ValueIdx Idealize.SL.Sem
open Idealize.ShloMosaic.Pipeline (Dat)

/-- Rows times a matrix: entry (r, j) is the sum over k of x(r, k) · w(k, j). -/
def rowsTimes (X : S100000x128.Idx → EReal) (Wt : S128x128.Idx → EReal) : S100000x128.Idx → EReal :=
  fun i => ∑ k : Fin 128, X (ix2 (n0 := 100000) (i 0) k) * Wt (ix2 k (n1 := 128) (i 1))

/-- Rows times a matrix, plus a row vector spread down the rows. -/
def rowsTimesPlus (X : S100000x128.Idx → EReal) (Wt : S128x128.Idx → EReal) (b : S1x128.Idx → EReal) : S100000x128.Idx → EReal :=
  fun i => rowsTimes X Wt i + b (ix2 (0 : Fin 1) (n1 := 128) (i 1))

/-- A tile whose row p is row r of x computes, at (p, q), the array's entry (r, q). -/
theorem features_point (x : Vec Ideal S5000x128 .f32) (w : Vec Ideal S128x128 .f32) (X : S100000x128.Idx → EReal) (Wt : S128x128.Idx → EReal)
    (j : S5000x128.Idx) (i : S100000x128.Idx)
    (hx : ∀ k : Fin 128, x (ix2 (n0 := 5000) (j 0) k) = X (ix2 (n0 := 100000) (i 0) k))
    (hw : ∀ k : Fin 128, w (ix2 k (n1 := 128) (j 1)) = Wt (ix2 k (n1 := 128) (i 1))) :
    k0_pay2 (F := Ideal) x w j = rowsTimes X Wt i := by
  obtain ⟨p, q, rfl⟩ : ∃ (p : Fin 5000) (q : Fin 128), j = ix2 p q := ⟨j 0, j 1, eq_ix2 j⟩
  rw [features_apply]
  unfold rowsTimes
  refine Finset.sum_congr rfl fun k _ => ?_
  have h1 : x (ix2 p k) = X (ix2 (n0 := 100000) (i 0) k) := hx k
  have h2 : w (ix2 k q) = Wt (ix2 k (n1 := 128) (i 1)) := hw k
  rw [h1, h2]

theorem projection_point (x : Vec Ideal S5000x128 .f32) (w : Vec Ideal S128x128 .f32) (b : Vec Ideal S1x128 .f32)
    (X : S100000x128.Idx → EReal) (Wt : S128x128.Idx → EReal) (B : S1x128.Idx → EReal)
    (j : S5000x128.Idx) (i : S100000x128.Idx)
    (hx : ∀ k : Fin 128, x (ix2 (n0 := 5000) (j 0) k) = X (ix2 (n0 := 100000) (i 0) k))
    (hw : ∀ k : Fin 128, w (ix2 k (n1 := 128) (j 1)) = Wt (ix2 k (n1 := 128) (i 1)))
    (hb : b (ix2 (0 : Fin 1) (n1 := 128) (j 1)) = B (ix2 (0 : Fin 1) (n1 := 128) (i 1))) :
    k0_pay3 (F := Ideal) x w b j = rowsTimesPlus X Wt B i := by
  obtain ⟨p, q, rfl⟩ : ∃ (p : Fin 5000) (q : Fin 128), j = ix2 p q := ⟨j 0, j 1, eq_ix2 j⟩
  rw [projection_apply]
  unfold rowsTimesPlus rowsTimes
  have h3 : b (ix2 (0 : Fin 1) q) = B (ix2 (0 : Fin 1) (n1 := 128) (i 1)) := hb
  rw [h3]
  refine congrArg (· + B (ix2 (0 : Fin 1) (n1 := 128) (i 1))) (Finset.sum_congr rfl fun k _ => ?_)
  have h1 : x (ix2 p k) = X (ix2 (n0 := 100000) (i 0) k) := hx k
  have h2 : w (ix2 k q) = Wt (ix2 k (n1 := 128) (i 1)) := hw k
  rw [h1, h2]

/-! ## From a point's write-back to the whole arrays -/

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the grid: the feature tile and both result tiles are row block t; the weight
    matrices and the bias row are always block (0, 0). -/
theorem block_indices : ∀ t : Fin cfg0.N,
    win0_4.index t (0 : Fin 2) = t.val ∧ win0_4.index t (1 : Fin 2) = 0
    ∧ win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- WHAT POINT t WRITES BACK to the first result is block t of x · w_fc, x and w_fc as the pipeline finds them. -/
theorem features_flushed (c : Dev nD) (t : Fin cfg0.N) :
    (dat0 (F := Ideal) V c).flushed 4 t
      = ((cfg0.win 4).blk t).view.read (Elt Ideal) (rowsTimes (V c main_arg0) (V c main_arg4)) := by
  show (cfg0.win 4).cut (grid0.coords t) ((dat0 (F := Ideal) V c).after 4 t) = _
  rw [after0_4]
  unfold out0_4
  rw [View.canon_unit_zero origin_zero]
  simp only [View.ld_unit_zero (S := S5000x128) origin_zero, View.ld_unit_zero (S := S128x128) origin_zero]
  obtain ⟨e40, e41, e50, e51, e00, e01, e10, e11, e20, e21, e30, e31⟩ := block_indices t
  funext j
  show k0_pay2 (F := Ideal) (iblk0 V c 0 t) (iblk0 V c 1 t) j
    = rowsTimes (V c main_arg0) (V c main_arg4) (((cfg0.win 4).blk t).view.emb j)
  refine features_point (iblk0 V c 0 t) (iblk0 V c 1 t) (V c main_arg0) (V c main_arg4) j (((cfg0.win 4).blk t).view.emb j)
    (fun k => ?_) (fun k => ?_)
  · show V c main_arg0 (((cfg0.win 0).blk t).view.emb (ix2 (n0 := 5000) (j 0) k))
      = V c main_arg0 (ix2 (n0 := 100000) ((((cfg0.win 4).blk t).view.emb j) 0) k)
    refine congrArg (V c main_arg0) (funext fun a => Fin.ext ?_)
    match a with
    | ⟨0, _⟩ => show win0_0.index t (0 : Fin 2) * 5000 + 1 * (j 0).val = win0_4.index t (0 : Fin 2) * 5000 + 1 * (j 0).val; rw [e00, e40]
    | ⟨1, _⟩ => show win0_0.index t (1 : Fin 2) * 128 + 1 * k.val = k.val; rw [e01]; omega
  · show V c main_arg4 (((cfg0.win 1).blk t).view.emb (ix2 k (n1 := 128) (j 1)))
      = V c main_arg4 (ix2 k (n1 := 128) ((((cfg0.win 4).blk t).view.emb j) 1))
    refine congrArg (V c main_arg4) (funext fun a => Fin.ext ?_)
    match a with
    | ⟨0, _⟩ => show win0_1.index t (0 : Fin 2) * 128 + 1 * k.val = k.val; rw [e10]; omega
    | ⟨1, _⟩ => show win0_1.index t (1 : Fin 2) * 128 + 1 * (j 1).val = win0_4.index t (1 : Fin 2) * 128 + 1 * (j 1).val; rw [e11, e41]

/-- WHAT POINT t WRITES BACK to the second result is block t of x · w_proj plus the bias row. -/
theorem projection_flushed (c : Dev nD) (t : Fin cfg0.N) :
    (dat0 (F := Ideal) V c).flushed 5 t
      = ((cfg0.win 5).blk t).view.read (Elt Ideal) (rowsTimesPlus (V c main_arg0) (V c main_arg5) (V c main_v0)) := by
  show (cfg0.win 5).cut (grid0.coords t) ((dat0 (F := Ideal) V c).after 5 t) = _
  rw [after0_5]
  unfold out0_5
  rw [View.canon_unit_zero origin_zero]
  simp only [View.ld_unit_zero (S := S5000x128) origin_zero, View.ld_unit_zero (S := S128x128) origin_zero,
    View.ld_unit_zero (S := S1x128) origin_zero]
  obtain ⟨e40, e41, e50, e51, e00, e01, e10, e11, e20, e21, e30, e31⟩ := block_indices t
  funext j
  show k0_pay3 (F := Ideal) (iblk0 V c 0 t) (iblk0 V c 2 t) (iblk0 V c 3 t) j
    = rowsTimesPlus (V c main_arg0) (V c main_arg5) (V c main_v0) (((cfg0.win 5).blk t).view.emb j)
  refine projection_point (iblk0 V c 0 t) (iblk0 V c 2 t) (iblk0 V c 3 t) (V c main_arg0) (V c main_arg5) (V c main_v0) j
    (((cfg0.win 5).blk t).view.emb j) (fun k => ?_) (fun k => ?_) ?_
  · show V c main_arg0 (((cfg0.win 0).blk t).view.emb (ix2 (n0 := 5000) (j 0) k))
      = V c main_arg0 (ix2 (n0 := 100000) ((((cfg0.win 5).blk t).view.emb j) 0) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; rw [e00, e50]
    | ⟨1, _⟩ => show win0_0.index t (1 : Fin 2) * 128 + 1 * k.val = k.val; rw [e01]; omega
  · show V c main_arg5 (((cfg0.win 2).blk t).view.emb (ix2 k (n1 := 128) (j 1)))
      = V c main_arg5 (ix2 k (n1 := 128) ((((cfg0.win 5).blk t).view.emb j) 1))
    refine congrArg (V c main_arg5) (funext fun a => Fin.ext ?_)
    match a with
    | ⟨0, _⟩ => show win0_2.index t (0 : Fin 2) * 128 + 1 * k.val = k.val; rw [e20]; omega
    | ⟨1, _⟩ => show win0_2.index t (1 : Fin 2) * 128 + 1 * (j 1).val = win0_5.index t (1 : Fin 2) * 128 + 1 * (j 1).val; rw [e21, e51]
  · show V c main_v0 (((cfg0.win 3).blk t).view.emb (ix2 (0 : Fin 1) (n1 := 128) (j 1)))
      = V c main_v0 (ix2 (0 : Fin 1) (n1 := 128) ((((cfg0.win 5).blk t).view.emb j) 1))
    refine congrArg (V c main_v0) (funext fun a => Fin.ext ?_)
    match a with
    | ⟨0, _⟩ => show win0_3.index t (0 : Fin 2) * 1 + 1 * 0 = 0; rw [e30]
    | ⟨1, _⟩ => show win0_3.index t (1 : Fin 2) * 128 + 1 * (j 1).val = win0_5.index t (1 : Fin 2) * 128 + 1 * (j 1).val; rw [e31, e51]

/-- An index of the first result is in point t's block iff each coordinate is in the block's range on its axis. -/
theorem mem_features_block (t : Fin cfg0.N) (i : S100000x128.Idx) :
    i ∈ ((cfg0.win 4).blk t).view.set
      ↔ ∀ a : Fin 2, win0_4.index t a * S5000x128.size a ≤ (i a).val ∧ (i a).val < win0_4.index t a * S5000x128.size a + S5000x128.size a := by
  show i ∈ ((View.whole main_v1_0).slice (win0_4.rect t)).set ↔ _
  rw [View.set_slice_whole, Rect.mem_set_unit]
  exact Iff.rfl

theorem mem_projection_block (t : Fin cfg0.N) (i : S100000x128.Idx) :
    i ∈ ((cfg0.win 5).blk t).view.set
      ↔ ∀ a : Fin 2, win0_5.index t a * S5000x128.size a ≤ (i a).val ∧ (i a).val < win0_5.index t a * S5000x128.size a + S5000x128.size a := by
  show i ∈ ((View.whole main_v1_1).slice (win0_5.rect t)).set ↔ _
  rw [View.set_slice_whole, Rect.mem_set_unit]
  exact Iff.rfl

/-- The point that owns row r is r / 5000. -/
def ownerOf (i : S100000x128.Idx) : Fin cfg0.N :=
  ⟨(i 0).val / 5000, by have h : (i 0).val < 100000 := (i 0).isLt; have hN : cfg0.N = 20 := N_0; omega⟩

/-- The 20 row blocks cover the first result … -/
theorem features_cover (i : S100000x128.Idx) :
    ∃ t : Fin cfg0.N, (cfg0.win 4).flush t = true ∧ i ∈ ((cfg0.win 4).blk t).view.set := by
  refine ⟨ownerOf i, flush0_4 _, ?_⟩
  obtain ⟨e40, e41, -⟩ := block_indices (ownerOf i)
  have h1 : (i 1).val < 128 := (i 1).isLt
  have hv : (ownerOf i).val = (i 0).val / 5000 := rfl
  rw [mem_features_block]
  intro a
  match a with
  | ⟨0, _⟩ =>
    show win0_4.index (ownerOf i) (0 : Fin 2) * 5000 ≤ (i 0).val ∧ (i 0).val < win0_4.index (ownerOf i) (0 : Fin 2) * 5000 + 5000
    rw [e40, hv]; omega
  | ⟨1, _⟩ =>
    show win0_4.index (ownerOf i) (1 : Fin 2) * 128 ≤ (i 1).val ∧ (i 1).val < win0_4.index (ownerOf i) (1 : Fin 2) * 128 + 128
    rw [e41]; omega

/-- … and the second. -/
theorem projection_cover (i : S100000x128.Idx) :
    ∃ t : Fin cfg0.N, (cfg0.win 5).flush t = true ∧ i ∈ ((cfg0.win 5).blk t).view.set := by
  refine ⟨ownerOf i, flush0_5 _, ?_⟩
  obtain ⟨-, -, e50, e51, -⟩ := block_indices (ownerOf i)
  have h1 : (i 1).val < 128 := (i 1).isLt
  have hv : (ownerOf i).val = (i 0).val / 5000 := rfl
  rw [mem_projection_block]
  intro a
  match a with
  | ⟨0, _⟩ =>
    show win0_5.index (ownerOf i) (0 : Fin 2) * 5000 ≤ (i 0).val ∧ (i 0).val < win0_5.index (ownerOf i) (0 : Fin 2) * 5000 + 5000
    rw [e50, hv]; omega
  | ⟨1, _⟩ =>
    show win0_5.index (ownerOf i) (1 : Fin 2) * 128 ≤ (i 1).val ∧ (i 1).val < win0_5.index (ownerOf i) (1 : Fin 2) * 128 + 128
    rw [e51]; omega

/-- THE FIRST RESULT after the pipeline: x · w_fc. -/
theorem features_array (c : Dev nD) :
    (dat0 (F := Ideal) V c).arrAt 4 cfg0.N = rowsTimes (V c main_arg0) (V c main_arg4) :=
  (dat0 (F := Ideal) V c).arrAt_eq_of_cover 4 (rowsTimes (V c main_arg0) (V c main_arg4))
    (fun t _ => features_flushed V c t) features_cover

/-- THE SECOND RESULT after the pipeline: x · w_proj plus the bias row down the rows. -/
theorem projection_array (c : Dev nD) :
    (dat0 (F := Ideal) V c).arrAt 5 cfg0.N = rowsTimesPlus (V c main_arg0) (V c main_arg5) (V c main_v0) :=
  (dat0 (F := Ideal) V c).arrAt_eq_of_cover 5 (rowsTimesPlus (V c main_arg0) (V c main_arg5) (V c main_v0))
    (fun t _ => projection_flushed V c t) projection_cover

end Cert.KernelIdeal.DenseArrays

end
-- ==== Proof.CombineArray.lean ====
/-
  The combine pipeline's result array, as a whole-array function of the arrays the pipeline is entered with.

  Point t of the 20-point grid owns rows 5000·t … 5000·t + 4999 of the aggregated messages, of the projection and of the
  result, and sees the output bias row whole; its body stores tanh((a + s) + b) entry by entry. So what point t writes
  back is block t of the array whose entry (r, j) is tanh((A(r, j) + S(r, j)) + B(0, j)), and the 20 row blocks tile the
  100000 rows: after the last write-back the result array IS that function.
-/
import proofs.«165332_j82652350644770_1_alg».proof.Proof.Gen.KernelIdeal.Frame
import proofs.«165332_j82652350644770_1_alg».proof.Proof.TileValues

set_option maxRecDepth 16384

noncomputable section

namespace Cert.KernelIdeal.CombineArray

open Cert.KernelIdeal Cert.KernelIdeal.Gen Cert.KernelIdeal.TileValues
open Idealize.ShloMosaic Idealize.ShloMosaic.TcCoe Idealize.ShloMosaic.ValueIdx Idealize.SL.Sem
open Idealize.ShloMosaic.Pipeline (Dat)

/-- Entry (r, j) is tanh((A(r, j) + S(r, j)) + B(0, j)). -/
def combined (A S : S100000x128.Idx → EReal) (B : S1x128.Idx → EReal) : S100000x128.Idx → EReal :=
  fun i => Ideal.tanh ((A i + S i) + B (ix2 (0 : Fin 1) (n1 := 128) (i 1)))

/-- A tile whose entry j is the arrays' entry i, column for column, computes the combined array's entry i. -/
theorem combine_point (a s : Vec Ideal S5000x128 .f32) (b : Vec Ideal S1x128 .f32)
    (A S : S100000x128.Idx → EReal) (B : S1x128.Idx → EReal) (j : S5000x128.Idx) (i : S100000x128.Idx)
    (ha : a j = A i) (hs : s j = S i)
    (hb : b (ix2 (0 : Fin 1) (n1 := 128) (j 1)) = B (ix2 (0 : Fin 1) (n1 := 128) (i 1))) :
    k1_pay1 (F := Ideal) a s b j = combined A S B i := by
  obtain ⟨p, q, rfl⟩ : ∃ (p : Fin 5000) (q : Fin 128), j = ix2 p q := ⟨j 0, j 1, eq_ix2 j⟩
  rw [combine_apply]
  unfold combined
  have h3 : b (ix2 (0 : Fin 1) q) = B (ix2 (0 : Fin 1) (n1 := 128) (i 1)) := hb
  rw [ha, hs, h3]

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the grid: the two input tiles and the result tile are row block t; the bias row is
    always block (0, 0). -/
theorem block_indices : ∀ t : Fin cfg1.N,
    win1_3.index t (0 : Fin 2) = t.val ∧ win1_3.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0 :=
  (by decide +kernel : ∀ t : Fin grid1.N, _)

/-- WHAT POINT t WRITES BACK is block t of the combined array, its three operands as the pipeline finds them. -/
theorem combined_flushed (c : Dev nD) (t : Fin cfg1.N) :
    (dat1 (F := Ideal) V c).flushed 3 t
      = ((cfg1.win 3).blk t).view.read (Elt Ideal) (combined (V c main_v14) (V c main_v1_1) (V c main_v15)) := by
  show (cfg1.win 3).cut (grid1.coords t) ((dat1 (F := Ideal) V c).after 3 t) = _
  rw [after1_3]
  unfold out1_3
  rw [View.canon_unit_zero origin_zero]
  simp only [View.ld_unit_zero (S := S5000x128) origin_zero, View.ld_unit_zero (S := S1x128) origin_zero]
  obtain ⟨e30, e31, e00, e01, e10, e11, e20, e21⟩ := block_indices t
  funext j
  show k1_pay1 (F := Ideal) (iblk1 V c 0 t) (iblk1 V c 1 t) (iblk1 V c 2 t) j
    = combined (V c main_v14) (V c main_v1_1) (V c main_v15) (((cfg1.win 3).blk t).view.emb j)
  refine combine_point (iblk1 V c 0 t) (iblk1 V c 1 t) (iblk1 V c 2 t) (V c main_v14) (V c main_v1_1) (V c main_v15) j
    (((cfg1.win 3).blk t).view.emb j) ?_ ?_ ?_
  · show V c main_v14 (((cfg1.win 0).blk t).view.emb j) = V c main_v14 (((cfg1.win 3).blk t).view.emb j)
    refine congrArg (V c main_v14) (funext fun a => Fin.ext ?_)
    match a with
    | ⟨0, _⟩ => show win1_0.index t (0 : Fin 2) * 5000 + 1 * (j 0).val = win1_3.index t (0 : Fin 2) * 5000 + 1 * (j 0).val; rw [e00, e30]
    | ⟨1, _⟩ => show win1_0.index t (1 : Fin 2) * 128 + 1 * (j 1).val = win1_3.index t (1 : Fin 2) * 128 + 1 * (j 1).val; rw [e01, e31]
  · show V c main_v1_1 (((cfg1.win 1).blk t).view.emb j) = V c main_v1_1 (((cfg1.win 3).blk t).view.emb j)
    refine congrArg (V c main_v1_1) (funext fun a => Fin.ext ?_)
    match a with
    | ⟨0, _⟩ => show win1_1.index t (0 : Fin 2) * 5000 + 1 * (j 0).val = win1_3.index t (0 : Fin 2) * 5000 + 1 * (j 0).val; rw [e10, e30]
    | ⟨1, _⟩ => show win1_1.index t (1 : Fin 2) * 128 + 1 * (j 1).val = win1_3.index t (1 : Fin 2) * 128 + 1 * (j 1).val; rw [e11, e31]
  · show V c main_v15 (((cfg1.win 2).blk t).view.emb (ix2 (0 : Fin 1) (n1 := 128) (j 1)))
      = V c main_v15 (ix2 (0 : Fin 1) (n1 := 128) ((((cfg1.win 3).blk t).view.emb j) 1))
    refine congrArg (V c main_v15) (funext fun a => Fin.ext ?_)
    match a with
    | ⟨0, _⟩ => show win1_2.index t (0 : Fin 2) * 1 + 1 * 0 = 0; rw [e20]
    | ⟨1, _⟩ => show win1_2.index t (1 : Fin 2) * 128 + 1 * (j 1).val = win1_3.index t (1 : Fin 2) * 128 + 1 * (j 1).val; rw [e21, e31]

/-- An index of the result is in point t's block iff each coordinate is in the block's range on its axis. -/
theorem mem_result_block (t : Fin cfg1.N) (i : S100000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole main_v16).slice (win1_3.rect t)).set ↔ _
  rw [View.set_slice_whole, Rect.mem_set_unit]
  exact Iff.rfl

/-- The point that owns row r is r / 5000. -/
def ownerOf (i : S100000x128.Idx) : Fin cfg1.N :=
  ⟨(i 0).val / 5000, by have h : (i 0).val < 100000 := (i 0).isLt; have hN : cfg1.N = 20 := N_1; omega⟩

/-- The 20 row blocks cover the result. -/
theorem result_cover (i : S100000x128.Idx) :
    ∃ t : Fin cfg1.N, (cfg1.win 3).flush t = true ∧ i ∈ ((cfg1.win 3).blk t).view.set := by
  refine ⟨ownerOf i, flush1_3 _, ?_⟩
  obtain ⟨e30, e31, -⟩ := block_indices (ownerOf i)
  have h1 : (i 1).val < 128 := (i 1).isLt
  have hv : (ownerOf i).val = (i 0).val / 5000 := rfl
  rw [mem_result_block]
  intro a
  match a with
  | ⟨0, _⟩ =>
    show win1_3.index (ownerOf i) (0 : Fin 2) * 5000 ≤ (i 0).val ∧ (i 0).val < win1_3.index (ownerOf i) (0 : Fin 2) * 5000 + 5000
    rw [e30, hv]; omega
  | ⟨1, _⟩ =>
    show win1_3.index (ownerOf i) (1 : Fin 2) * 128 ≤ (i 1).val ∧ (i 1).val < win1_3.index (ownerOf i) (1 : Fin 2) * 128 + 128
    rw [e31]; omega

/-- THE RESULT after the pipeline: tanh((A + S) + B down the rows) of the three arrays it was entered with. -/
theorem result_array (c : Dev nD) :
    (dat1 (F := Ideal) V c).arrAt 3 cfg1.N = combined (V c main_v14) (V c main_v1_1) (V c main_v15) :=
  (dat1 (F := Ideal) V c).arrAt_eq_of_cover 3 (combined (V c main_v14) (V c main_v1_1) (V c main_v15))
    (fun t _ => combined_flushed V c t) result_cover

end Cert.KernelIdeal.CombineArray

end
-- ==== Proof.HostReads.lean ====
/-
  What the two pipelines are entered with, read through the host operations around them.

  Before the dense pipeline the host recasts the projection bias, a vector of 128 entries, as a row [1, 128]; nothing
  else is written, so the pipeline finds the node features and both weight matrices as launched. Between the
  pipelines the host wraps negative source indices around (index + 100000 where the index is negative), gathers those
  rows of the first dense result, scales row e by the edge weight of edge e, adds the scaled rows into the rows named by
  the destination indices of an all-zero array, and recasts the output bias as a row. So the combine pipeline finds, as
  its first operand, that aggregation of the first dense result; as its second, the second dense result untouched; and
  as its third the output bias as a row.
-/
import proofs.«165332_j82652350644770_1_alg».proof.Proof.Gen.KernelIdeal.Frame
import Idealize.ShloMosaic.Lib.StableHlo.Run
import Idealize.ShloMosaic.PureOps.Ideal

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

/-- Gather the source rows of `h` (a negative index wrapped around by the number of rows), scale row e by the edge
    weight of edge e, and add the scaled rows into the destination rows of the zero array. -/
def aggregate (h : (⟨S100000x128, .f32⟩ : BufTy).Contents (Elt Ideal)) (src dst : (⟨S1600000, .i32⟩ : BufTy).Contents (Elt Ideal))
    (vals : (⟨S1600000, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] Facts₀.bcast_S_S100000x128 (constant (F := Ideal) S_ .f32 0x00000000#32))
    (broadcastInDim S1600000x1 ![0] Facts₀.bcast_S1600000_S1600000x1_0 dst)
    (mulf (F := Ideal) (broadcastInDim S1600000x128 ![0, 1] Facts₀.bcast_S1600000x1_S1600000x128_0_1 (broadcastInDim S1600000x1 ![0] Facts₀.bcast_S1600000_S1600000x1_0 vals))
      (Host.gather gather_S100000x128_S1600000x1_S1600000x128_1_0_n_n_0_1_1128 h
        (broadcastInDim S1600000x1 ![0] Facts₀.bcast_S1600000_S1600000x1_0
          (select (cmpi .slt src (broadcastInDim S1600000 ![] Facts₀.bcast_S_S1600000 (constantI S_ 32 0#32)))
            (addi src (broadcastInDim S1600000 ![] Facts₀.bcast_S_S1600000 (constantI S_ 32 100000#32))) src))))

variable (m : (ℓ : Loc nD τ sig) → Buf (Elt Ideal) ℓ) (ρ : Dev nD → PrngReg)

/-! ## Entering the dense pipeline -/

theorem dense_features (c : Dev nD) : V1 m ρ c main_arg0 = m ((c : Thread nD τ).loc main_arg0) := by
  show StableHlo.after hostOps0 (W0 m ρ c) (Proc.devRef .tc main_arg0) = _
  after_results

theorem dense_weights_fc (c : Dev nD) : V1 m ρ c main_arg4 = m ((c : Thread nD τ).loc main_arg4) := by
  show StableHlo.after hostOps0 (W0 m ρ c) (Proc.devRef .tc main_arg4) = _
  after_results

theorem dense_weights_proj (c : Dev nD) : V1 m ρ c main_arg5 = m ((c : Thread nD τ).loc main_arg5) := by
  show StableHlo.after hostOps0 (W0 m ρ c) (Proc.devRef .tc main_arg5) = _
  after_results

/-- The projection bias as a row. -/
theorem dense_bias_row (c : Dev nD) :
    V1 m ρ c main_v0 = shapeCast S1x128 (m ((c : Thread nD τ).loc main_arg6)) Facts₀.shapeCasts_S128_S1x128 := by
  show StableHlo.after hostOps0 (W0 m ρ c) (Proc.devRef .tc main_v0) = _
  after_results
  rfl

/-! ## Between the pipelines -/

theorem between_src (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)

theorem between_dst (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

theorem between_vals (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)

theorem between_out_bias (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)

/-- The first dense result, as the dense pipeline leaves it. -/
theorem between_features (c : Dev nD) :
    W2 m ρ c (Proc.devRef .tc main_v1_0) = (dat0 (F := Ideal) (V1 m ρ) c).arrAt 4 cfg0.N := W2_arr m ρ c 4

/-- The second dense result, as the dense pipeline leaves it. -/
theorem between_projection (c : Dev nD) :
    W2 m ρ c (Proc.devRef .tc main_v1_1) = (dat0 (F := Ideal) (V1 m ρ) c).arrAt 5 cfg0.N := W2_arr m ρ c 5

/-! ## Entering the combine pipeline -/

/-- From ANY contents `W` the second host stretch leaves, in the buffer the combine pipeline reads first, the aggregation
    of `W`'s first dense result along `W`'s edges. -/
theorem stretch_aggregate (W : Valuation τ sig (Elt Ideal)) :
    StableHlo.after hostOps1 W (Proc.devRef .tc main_v14)
      = aggregate (W (Proc.devRef .tc main_v1_0)) (W (Proc.devRef .tc main_arg1)) (W (Proc.devRef .tc main_arg2))
          (W (Proc.devRef .tc main_arg3)) := by
  after_results
  rfl

/-- Its first operand: the aggregation of the first dense result along the edges. -/
theorem combine_aggregate (c : Dev nD) :
    V3 m ρ c main_v14 = aggregate ((dat0 (F := Ideal) (V1 m ρ) c).arrAt 4 cfg0.N) (m ((c : Thread nD τ).loc main_arg1))
      (m ((c : Thread nD τ).loc main_arg2)) (m ((c : Thread nD τ).loc main_arg3)) :=
  (stretch_aggregate (W2 m ρ c)).trans (by rw [between_src, between_dst, between_vals, between_features])

/-- Its second operand: the second dense result, which no host operation writes. -/
theorem combine_projection (c : Dev nD) :
    V3 m ρ c main_v1_1 = (dat0 (F := Ideal) (V1 m ρ) c).arrAt 5 cfg0.N := by
  dsimp only [V3, W3]
  after_results
  exact between_projection m ρ c

/-- Its third operand: the output bias as a row. -/
theorem combine_bias_row (c : Dev nD) :
    V3 m ρ c main_v15 = shapeCast S1x128 (m ((c : Thread nD τ).loc main_arg7)) Facts₀.shapeCasts_S128_S1x128 := by
  dsimp only [V3, W3]
  after_results
  rw [between_out_bias]
  rfl

end Cert.KernelIdeal.HostReads

end
-- ==== Proof.ReferenceValue.lean ====
/-
  The reference program's result, entry by entry on the extended reals.

  The reference computes h = x · w_fc with the host's matrix product, aggregates h along the edges (the same gather,
  scaling and scatter-add as the kernel's host stretch, which are left as they are), and returns
  tanh(((agg + bias) + x · w_proj) + b_proj), each bias spread as a row down the 100000 rows. Entry (r, j) of a host
  matrix product is the sum over k of x(r, k) · w(k, j), and entry (r, j) of a spread bias is the bias's entry j.
-/
import proofs.«165332_j82652350644770_1_alg».proof.Proof.Gen.ReferenceIdeal.Read
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx

/-- At result entry (r, j) and contraction position k the first product reads x at (r, k) … -/
theorem features_left (r : Fin 100000) (j k : Fin 128) : lidx_main_v0 (ix2 r j) k = ix2 r k :=
  funext fun a => Fin.ext (by match a with | ⟨0, _⟩ => rfl | ⟨1, _⟩ => rfl)
/-- … and w_fc at (k, j); -/
theorem features_right (r : Fin 100000) (j k : Fin 128) : ridx_main_v0 (ix2 r j) k = ix2 k j :=
  funext fun a => Fin.ext (by match a with | ⟨0, _⟩ => rfl | ⟨1, _⟩ => rfl)
/-- the second product likewise. -/
theorem projection_left (r : Fin 100000) (j k : Fin 128) : lidx_main_v17 (ix2 r j) k = ix2 r k :=
  funext fun a => Fin.ext (by match a with | ⟨0, _⟩ => rfl | ⟨1, _⟩ => rfl)
theorem projection_right (r : Fin 100000) (j k : Fin 128) : ridx_main_v17 (ix2 r j) k = ix2 k j :=
  funext fun a => Fin.ext (by match a with | ⟨0, _⟩ => rfl | ⟨1, _⟩ => rfl)
/-- A bias spread as a row and then down the rows reads, at (r, j), its entry j. -/
theorem out_bias_index (r : Fin 100000) (j : Fin 128) : idx_main_v14 (idx_main_v15 (ix2 r j)) = ix1 j :=
  funext fun a => Fin.ext (by match a with | ⟨0, _⟩ => rfl)
theorem proj_bias_index (r : Fin 100000) (j : Fin 128) : idx_main_v19 (idx_main_v20 (ix2 r j)) = ix1 j :=
  funext fun a => Fin.ext (by match a with | ⟨0, _⟩ => rfl)

/-- h = x · w_fc at (r, j). -/
theorem features_apply (x0 : (⟨S100000x128, .f32⟩ : BufTy).Contents (Elt Ideal)) (x4 : (⟨S128x128, .f32⟩ : BufTy).Contents (Elt Ideal))
    (r : Fin 100000) (j : Fin 128) :
    val_main_v0 (F := Ideal) x0 x4 (ix2 r j) = ∑ k : Fin 128, x0 (ix2 r k) * x4 (ix2 k j) := by
  rw [val_main_v0_apply]
  simp only [features_left, features_right]

/-- THE RESULT at (r, j): tanh(((agg(r, j) + bias(j)) + the sum over k of x(r, k) · w_proj(k, j)) + b_proj(j)). -/
theorem result_apply (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 x5 : (⟨S128x128, .f32⟩ : BufTy).Contents (Elt Ideal))
    (x6 x7 : (⟨S128, .f32⟩ : BufTy).Contents (Elt Ideal)) (r : Fin 100000) (j : Fin 128) :
    val_main_v22 (F := Ideal) x0 x1 x2 x3 x4 x5 x6 x7 (ix2 r j)
      = Ideal.tanh (((val_main_v13 (F := Ideal) x0 x1 x2 x3 x4 (ix2 r j) + x7 (ix1 j))
          + ∑ k : Fin 128, x0 (ix2 r k) * x5 (ix2 k j)) + x6 (ix1 j)) := by
  rw [val_main_v22_apply, val_main_v21_apply, val_main_v18_apply, val_main_v16_apply, val_main_v20_apply, val_main_v19_apply,
    val_main_v15_apply, val_main_v14_apply, val_main_v17_apply]
  simp only [projection_left, projection_right, out_bias_index, proj_bias_index, Ideal.addf_def, Ideal.hostUnary_tanh_def]

end Cert.ReferenceIdeal.RefValue

end
-- ==== Proof.Bridge.lean ====
/-
  The idealized kernel's result array is the reference's result, as one function of the eight argument arrays.

  Chaining the pieces: the combine pipeline leaves tanh((A + S) + bias row), where A is the aggregation along the edges of
  the first dense result and S is the second dense result; the dense pipeline leaves x · w_fc and x · w_proj + b_proj row.
  The reference's h = x · w_fc is the same array (both are the sum over k of x(r, k) · w_fc(k, j)), so the two
  aggregations, which are the same host operations applied to the same array, agree. What is left at entry (r, j) is
  tanh((a + (p + b₆)) + b₇) against tanh(((a + b₇) + p) + b₆) for extended reals a, p, b₆, b₇: equal because addition of
  extended reals is commutative and associative (no finiteness is used; the precondition is never opened).
-/
import proofs.«165332_j82652350644770_1_alg».proof.Proof.KernelRun
import proofs.«165332_j82652350644770_1_alg».proof.Proof.DenseArrays
import proofs.«165332_j82652350644770_1_alg».proof.Proof.CombineArray
import proofs.«165332_j82652350644770_1_alg».proof.Proof.HostReads
import proofs.«165332_j82652350644770_1_alg».proof.Proof.ReferenceValue

set_option maxRecDepth 16384

noncomputable section

namespace Cert.Bridge

open Idealize.ShloMosaic Idealize.ShloMosaic.TcCoe Idealize.ShloMosaic.ValueIdx Idealize.SL.Sem
open Cert.KernelIdeal Cert.KernelIdeal.Gen

/-- Regrouping three added terms: (a + (p + b₆)) + b₇ = ((a + b₇) + p) + b₆ on the extended reals. -/
theorem regroup (a p b₆ b₇ : EReal) : (a + (p + b₆)) + b₇ = ((a + b₇) + p) + b₆ := by
  rw [add_assoc a b₇ p, add_comm b₇ p, ← add_assoc a p b₇, add_assoc (a + p) b₇ b₆, add_comm b₇ b₆, ← add_assoc (a + p) b₆ b₇,
    add_assoc a p b₆]

/-- The reference's aggregation is the kernel's host stretch applied to the reference's h. -/
theorem reference_aggregate (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x128, .f32⟩ : BufTy).Contents (Elt Ideal)) :
    Cert.ReferenceIdeal.Read.val_main_v13 (F := Ideal) x0 x1 x2 x3 x4
      = HostReads.aggregate (Cert.ReferenceIdeal.Read.val_main_v0 (F := Ideal) x0 x4) x1 x2 x3 := rfl

/-- The kernel's first dense result is the reference's h. -/
theorem features_eq (x0 : (⟨S100000x128, .f32⟩ : BufTy).Contents (Elt Ideal)) (x4 : (⟨S128x128, .f32⟩ : BufTy).Contents (Elt Ideal)) :
    DenseArrays.rowsTimes x0 x4 = Cert.ReferenceIdeal.Read.val_main_v0 (F := Ideal) x0 x4 := by
  funext i
  obtain ⟨r, j, rfl⟩ : ∃ (r : Fin 100000) (j : Fin 128), i = ix2 r j := ⟨i 0, i 1, eq_ix2 i⟩
  rw [Cert.ReferenceIdeal.RefValue.features_apply]
  rfl

/-- One entry: with the two biases recast as rows, the kernel's arrangement of the three additions is the reference's. -/
theorem entry_eq (A : S100000x128.Idx → EReal) (x : S100000x128.Idx → EReal) (w : S128x128.Idx → EReal)
    (b₆ b₇ : S128.Idx → EReal) (h₆ h₇ : S128.ShapeCasts S1x128) (r : Fin 100000) (j : Fin 128) :
    CombineArray.combined A (DenseArrays.rowsTimesPlus x w (shapeCast S1x128 b₆ h₆)) (shapeCast S1x128 b₇ h₇) (ix2 r j)
      = Ideal.tanh (((A (ix2 r j) + b₇ (ix1 j)) + ∑ k : Fin 128, x (ix2 r k) * w (ix2 k j)) + b₆ (ix1 j)) := by
  have e₆ : shapeCast S1x128 b₆ h₆ (ix2 (0 : Fin 1) j) = b₆ (ix1 j) := shapeCast_a_1a_apply b₆ h₆ 0 j
  have e₇ : shapeCast S1x128 b₇ h₇ (ix2 (0 : Fin 1) j) = b₇ (ix1 j) := shapeCast_a_1a_apply b₇ h₇ 0 j
  show Ideal.tanh ((A (ix2 r j) + ((∑ k : Fin 128, x (ix2 r k) * w (ix2 k j)) + shapeCast S1x128 b₆ h₆ (ix2 (0 : Fin 1) j)))
      + shapeCast S1x128 b₇ h₇ (ix2 (0 : Fin 1) j)) = _
  rw [e₆, e₇, regroup]

variable (m : (ℓ : Loc nD τ sig) → Buf (Elt Ideal) ℓ) (ρ : Dev nD → PrngReg)

/-- THE KERNEL'S RESULT ARRAY is the reference's result term of the launch contents of the eight arguments. -/
theorem kernel_result (c : Dev nD) :
    (dat1 (F := Ideal) (V3 m ρ) c).arrAt 3 cfg1.N
      = Cert.ReferenceIdeal.Read.val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [CombineArray.result_array (V3 m ρ) c, HostReads.combine_aggregate, HostReads.combine_projection, HostReads.combine_bias_row,
    DenseArrays.features_array (V1 m ρ) c, DenseArrays.projection_array (V1 m ρ) c,
    HostReads.dense_features, HostReads.dense_weights_fc, HostReads.dense_weights_proj, HostReads.dense_bias_row,
    features_eq (m ((c : Thread nD τ).loc main_arg0)) (m ((c : Thread nD τ).loc main_arg4))]
  funext i
  obtain ⟨r, j, rfl⟩ : ∃ (r : Fin 100000) (j : Fin 128), i = ix2 r j := ⟨i 0, i 1, eq_ix2 i⟩
  rw [Cert.ReferenceIdeal.RefValue.result_apply, reference_aggregate]
  exact entry_eq _ (m ((c : Thread nD τ).loc main_arg0)) (m ((c : Thread nD τ).loc main_arg5))
    (m ((c : Thread nD τ).loc main_arg6)) (m ((c : Thread nD τ).loc main_arg7)) _ _ r j

/-- THE KERNEL'S RUN, READ: the result array at the reference's term, every argument array as launched. -/
theorem kernel_run : θ_run defs (onTc (τ := τ) (main (F := Ideal))) ⟨m, fun _ => 0, ρ⟩ (fun r => ∀ c : Dev nD,
      r.2.mem ((c : Thread nD τ).loc main_v16)
        = Cert.ReferenceIdeal.Read.val_main_v22 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c => ⟨(h c).1.trans (kernel_result m ρ c), (h c).2⟩) (KernelRun.run m ρ)

end Cert.Bridge

end
-- ==== Proof.lean ====
/- The proof of `Cert.Claim` for a graph-convolution layer: out = tanh(agg + bias + x · w_proj + b_proj), where
   h = x · w_fc and agg adds, into the row of each edge's destination, the edge's weight times the row of h at the edge's
   source.

   The kernel program computes h and x · w_proj + b_proj in one pipeline over 20 tiles of 5000 rows (the matrix products on
   operands narrowed to the short float format), aggregates h on the host, and combines tanh((agg + proj) + bias) in a
   second pipeline over the same tiles; the reference is the formula above on the host. On the extended reals the
   narrowing is the identity, each product is the plain sum over k, the aggregation is the same host operations on the
   same array, and the two orders of the three additions agree by commutativity and associativity; no finiteness is
   needed, so the precondition is never opened.

   The three frames: the word-level and the idealized kernel by their generated frame certificates, the reference by its
   generated run with the result dropped. `preserves`: the ideal pass rewrote nothing, the conjunct is `True`.
   `algebraic`: the kernel's run with its result array read back (Proof/KernelRun.lean, Proof/DenseArrays.lean,
   Proof/HostReads.lean, Proof/CombineArray.lean, joined in Proof/Bridge.lean) beside the reference's generated run, both
   stated at the reference's result term of the arguments. -/
import proofs.«165332_j82652350644770_1_alg».proof.Defs
import proofs.«165332_j82652350644770_1_alg».proof.Proof.Gen.Kernel
import proofs.«165332_j82652350644770_1_alg».proof.Proof.Gen.Kernel.Frame
import proofs.«165332_j82652350644770_1_alg».proof.Proof.Gen.KernelIdeal
import proofs.«165332_j82652350644770_1_alg».proof.Proof.Gen.KernelIdeal.Frame
import proofs.«165332_j82652350644770_1_alg».proof.Proof.Gen.ReferenceIdeal
import proofs.«165332_j82652350644770_1_alg».proof.Proof.Gen.ReferenceIdeal.Run
import proofs.«165332_j82652350644770_1_alg».proof.Proof.Gen.ReferenceIdeal.Read
import proofs.«165332_j82652350644770_1_alg».proof.Proof.Gen.Pre_finite_inputs
import proofs.«165332_j82652350644770_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result at the reference's term of those
    arguments, and with the arguments unchanged. -/
theorem algebraic : Cert.algebraic_KernelIdeal_ReferenceIdeal := by
  intro m ρ m' ρ' _ hagree
  refine ⟨_, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
